-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.sign_bit.Statement Cert.KernelIdeal.S256x4096 .f32
  ∧ IdealRules.sign_bit.Statement Cert.KernelIdeal.S256x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S16384x4096 : Shape := ⟨2, ![16384, 4096]⟩
abbrev S16384 : Shape := ⟨1, ![16384]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S4096x4096 .f32) (main_arg1 : FVec F S16384x4096 .f32) (main_arg2 : FVec F S16384x4096 .f32) (main_arg3 : FVec F S16384 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384x4096 .f32 := Host.absf main_arg2
  let main_cst_2 : FVec F S_ .f32 := constant S_ .f32 0x7F800000#32
  let main_v10 : FVec F S16384x4096 .f32 := broadcastInDim S16384x4096 ![] bcast_S_S16384x4096 main_cst_2
  let main_v11 : IVec S16384x4096 1 := cmpf .olt main_v9 main_v10
  let main_c_3 : IVec S_ 1 := constantI S_ 1 1#1
  let main_v12 : IVec S_ 1 := (fun x v => Host.reduce IntOp.andi x v reducesTo_S16384x4096_S_d0_1 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S4096x4096 : Shape := ⟨2, ![4096, 4096]⟩
abbrev S16384x4096 : Shape := ⟨2, ![16384, 4096]⟩
abbrev S16384 : Shape := ⟨1, ![16384]⟩
abbrev S256x4096 : Shape := ⟨2, ![256, 4096]⟩
abbrev S1x16384 : Shape := ⟨2, ![1, 16384]⟩
abbrev S4096x16384 : Shape := ⟨2, ![4096, 16384]⟩
abbrev S128x4096 : Shape := ⟨2, ![128, 4096]⟩
abbrev S2048x4096 : Shape := ⟨2, ![2048, 4096]⟩
abbrev S1x2048 : Shape := ⟨2, ![1, 2048]⟩
abbrev S128x2048 : Shape := ⟨2, ![128, 2048]⟩

abbrev nBuf : Space → Nat
  | .hbm => 8
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S16384x4096, .f32⟩
  | .hbm, ⟨2, _⟩ => ⟨S16384x4096, .f32⟩
  | .hbm, ⟨3, _⟩ => ⟨S16384, .f32⟩
  | .hbm, ⟨4, _⟩ => ⟨S16384x4096, .bf16⟩
  | .hbm, ⟨5, _⟩ => ⟨S4096x4096, .bf16⟩
  | .hbm, ⟨6, _⟩ => ⟨S1x16384, .f32⟩
  | .hbm, ⟨7, _⟩ => ⟨S4096x16384, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | .local _ .vmem, ⟨6, _⟩ => ⟨S128x4096, .bf16⟩
  | .local _ .vmem, ⟨7, _⟩ => ⟨S128x4096, .bf16⟩
  | .local _ .vmem, ⟨8, _⟩ => ⟨S2048x4096, .bf16⟩
  | .local _ .vmem, ⟨9, _⟩ => ⟨S2048x4096, .bf16⟩
  | .local _ .vmem, ⟨10, _⟩ => ⟨S1x2048, .f32⟩
  | .local _ .vmem, ⟨11, _⟩ => ⟨S1x2048, .f32⟩
  | .local _ .vmem, ⟨12, _⟩ => ⟨S128x2048, .f32⟩
  | .local _ .vmem, ⟨13, _⟩ => ⟨S128x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S128x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S16384_S1x16384 : S16384.ShapeCasts S1x16384
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  inb_S128x2048_S128x2048_0_0 : ∀ a, (![0, 0] : Fin 2 → Nat) a + S128x2048.size a ≤ S128x2048.size a
  h_S128x2048 : 0 < S128x2048.numel
  dot_S128x4096_S2048x4096_S128x2048_1_1_0_0_n_n_wf : DotDims.WF S128x4096 S2048x4096 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S16384x4096.size a
  hwx0_2 : ∀ i : grid0.Coords, EltTy.bits .bf16 = 32 ∨ (Rect.block (s := S16384x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S4096x4096.size a
  hwx1_0 : ∀ i : grid1.Coords, EltTy.bits .bf16 = 32 ∨ (Rect.block (s := S4096x4096) S128x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x4096.size a ≤ S16384x4096.size a
  hwx1_1 : ∀ i : grid1.Coords, EltTy.bits .bf16 = 32 ∨ (Rect.block (s := S16384x4096) S2048x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x16384.size a
  hwx1_2 : ∀ i : grid1.Coords, EltTy.bits .f32 = 32 ∨ (Rect.block (s := S1x16384) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x2048.size a ≤ S4096x16384.size a
  hwx1_3 : ∀ i : grid1.Coords, EltTy.bits .f32 = 32 ∨ (Rect.block (s := S4096x16384) S128x2048.size (cc1_transform_3 i) (hinb1_3 i)).WholeWords (EltTy.packing .f32)

variable [Facts₀]

def dot_S128x4096_S2048x4096_S128x2048_1_1_0_0_n_n : DotDims S128x4096 S2048x4096 S128x2048 where
  lhsContracting := [1]
  rhsContracting := [1]
  lhsNonContracting := [0]
  rhsNonContracting := [0]
  lhsBatch := []
  rhsBatch := []
  wf := dot_S128x4096_S2048x4096_S128x2048_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S16384x4096 : Shape := ⟨2, ![16384, 4096]⟩
abbrev S16384 : Shape := ⟨1, ![16384]⟩
abbrev S_ : Shape := ⟨0, ![]⟩
abbrev S4096x16384 : Shape := ⟨2, ![4096, 16384]⟩
abbrev S1x16384 : Shape := ⟨2, ![1, 16384]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S16384x4096, .f32⟩
  | .hbm, ⟨2, _⟩ => ⟨S16384x4096, .f32⟩
  | .hbm, ⟨3, _⟩ => ⟨S16384, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S4096x16384, .f32⟩
  | .hbm, ⟨11, _⟩ => ⟨S1x16384, .f32⟩
  | .hbm, ⟨12, _⟩ => ⟨S4096x16384, .f32⟩
  | .hbm, ⟨13, _⟩ => ⟨S4096x16384, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  dot_S4096x4096_S16384x4096_S4096x16384_1_1_0_0_n_n_wf : DotDims.WF S4096x4096 S16384x4096 S4096x16384 [1] [1] [0] [0] [] []

variable [Facts₀]

def dot_S4096x4096_S16384x4096_S4096x16384_1_1_0_0_n_n : DotDims S4096x4096 S16384x4096 S4096x16384 where
  lhsContracting := [1]
  rhsContracting := [1]
  lhsNonContracting := [0]
  rhsNonContracting := [0]
  lhsBatch := []
  rhsBatch := []
  wf := dot_S4096x4096_S16384x4096_S4096x16384_1_1_0_0_n_n_wf

class Facts : Prop extends Facts₀ where

variable [Facts]
-- ==== Proof.RunNamed.lean ====
/-
  The idealized kernel's run with its result array named.

  The program runs as three segments — a kernel region, a stretch of two host operations, a second kernel region — and the
  contents of every unscoped buffer at each boundary are known by name. Every weakly fair execution terminates with every
  unscoped buffer at the last boundary's contents; read at the program's result, that is what the second region's
  write-backs leave in its output array, and read at the four arguments it is the launch contents.
-/
import proofs.«143409_j30159260352826_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section AnyInstance

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at what the second
    region's write-backs leave and the four argument arrays as launched: the segments' run, every unscoped buffer read
    against the final state at the last boundary's contents. -/
theorem run_named : θ_run defs (onTc (τ := τ) (main (F := F))) ⟨m, fun _ => 0, ρ⟩ (fun r => ∀ c : Dev nD,
      r.2.mem ((c.tc : Thread nD τ).loc main_v3) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v3 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end AnyInstance

end Cert.KernelIdeal.Run

end
-- ==== Proof.Spec.lean ====
/-
  The mathematics of the ternary linear layer, stated once over plain arrays of extended reals.

  A ternary weight is half the sum of two signs: `(sign a + sign b) · ½`, one of -1, -½, 0, ½, 1.
  The layer is the affine map `out[t, o] = Σ_k x[t, k] · w[o, k] + bias[o]`: every output entry is one
  row of `x` against one row of the weight matrix (both operands contract their second axis), plus
  the bias of the output column. The sum runs over the 4096 input features at once; no association of
  it is fixed, since addition of extended reals is commutative and associative.
-/
import Idealize.ShloMosaic.PureOps.Ideal
import Idealize.ShloMosaic.PureOps.Ideal.Laws
import Idealize.ShloMosaic.Lib.ValueIdx

noncomputable section

open scoped BigOperators

namespace Cert.TernaryLinear

open Idealize.ShloMosaic Idealize.ShloMosaic.ValueIdx

/-- The weights' shape, the activations' shape, the bias's shape and the result's shape. -/
abbrev SW : Shape := ⟨2, ![16384, 4096]⟩
abbrev SX : Shape := ⟨2, ![4096, 4096]⟩
abbrev SB : Shape := ⟨1, ![16384]⟩
abbrev SO : Shape := ⟨2, ![4096, 16384]⟩

/-- One ternary weight from the two real weights it combines: half the sum of their signs. -/
def ternAt (a b : EReal) : EReal := (Ideal.sign a + Ideal.sign b) * Ideal.ofBits .f32 0x3F000000#32

/-- The ternary weight matrix, entry by entry. -/
def tern (w1 w2 : SW.Idx → EReal) : SW.Idx → EReal := fun i => ternAt (w1 i) (w2 i)

/-- One entry of the layer: row `t` of the activations against row `o` of the weights, plus the bias at `o`. -/
def affineAt (x : SX.Idx → EReal) (w : SW.Idx → EReal) (b : Fin 16384 → EReal) (t : Fin 4096) (o : Fin 16384) : EReal :=
  (∑ k : Fin 4096, x (ix2 t k) * w (ix2 o k)) + b o

/-- The layer's result array: entry `(t, o)` is `affineAt` there. -/
def affine (x : SX.Idx → EReal) (w : SW.Idx → EReal) (b : SB.Idx → EReal) : SO.Idx → EReal :=
  fun i => affineAt x w (fun o => b (ix1 o)) (i 0) (i 1)

/-- The whole layer of the four argument arrays. -/
def layer (x : SX.Idx → EReal) (w1 w2 : SW.Idx → EReal) (b : SB.Idx → EReal) : SO.Idx → EReal :=
  affine x (tern w1 w2) b

end Cert.TernaryLinear

end
-- ==== Proof.TernBlocks.lean ====
/-
  The first kernel region writes the ternary weight matrix.

  Its grid has 64 points; point `t` loads rows `256·t … 256·t + 255` of the two weight arrays (all 4096 columns),
  computes at every element the half-sum of the two signs — the kernel's `sign` is "1 with the operand's sign where the
  operand is not zero, else the operand", which on the extended reals is the sign function — and stores the block to the
  same rows of the result. The three windows move together (same block index at every point), so the block a point
  writes back is the restriction to its rows of ONE whole-array function, `tern` of the two weight arrays as the region
  finds them; the 64 row blocks cover the 16384 rows, so after the region the array IS `tern`.
-/
import proofs.«143409_j30159260352826_2_alg».proof.Proof.Gen.KernelIdeal.Frame
import proofs.«143409_j30159260352826_2_alg».proof.Proof.Spec
import Idealize.ShloMosaic.Lib.Pipeline.Value
import Idealize.ShloMosaic.Lib.ValueIdx
import Idealize.ShloMosaic.PureOps.Ideal.Laws

noncomputable section

namespace Cert.KernelIdeal.TernBlocks

open Cert.KernelIdeal Cert.KernelIdeal.Gen Idealize.ShloMosaic Idealize.ShloMosaic.TcCoe Idealize.SL.Sem
open Idealize.ShloMosaic.Pipeline (Dat)
open Idealize.ShloMosaic.ValueIdx Cert.TernaryLinear

variable (V : (c : Dev nD) → (b : Ref sig .tc) → Buf (Elt Ideal) ((c : Thread nD τ).loc b))

theorem origin : (![0, 0] : Fin 2 → Nat) = fun _ => 0 := funext fun a => by fin_cases a <;> rfl

/-- The body's arithmetic at one element: the half-sum of the two loaded elements' signs. -/
theorem weight_apply (x0 x1 : Vec Ideal S256x4096 .f32) (j : S256x4096.Idx) :
    k0_pay1 (F := Ideal) x0 x1 j = ternAt (x0 j) (x1 j) := by
  unfold ternAt
  rw [← Ideal.jnp_sign_eq_sign_f32 (x0 j), ← Ideal.jnp_sign_eq_sign_f32 (x1 j)]
  rfl

/-- The three windows' block indices agree at every point, and the block row stays below 64. -/
theorem same_rows : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 63 ∧ win0_2.index t (1 : Fin 2) = 0 :=
  (by decide +kernel : ∀ t : Fin grid0.N, _)

/-- Every block row is some point's. -/
theorem row_onto : ∀ q : Fin 64, ∃ t : Fin cfg0.N, win0_2.index t = ![q.val, 0] :=
  (by decide +kernel : ∀ q : Fin 64, ∃ t : Fin grid0.N, win0_2.index t = ![q.val, 0])

/-- What point `t` writes back is the block at `t` of the ternary matrix of the two weight arrays. -/
theorem flushed_eq (c : Dev nD) (t : Fin cfg0.N) :
    (dat0 V c).flushed 2 t = ((cfg0.win 2).blk t).view.read (Elt Ideal) (tern (V c main_arg1) (V c main_arg2)) := by
  show (cfg0.win 2).cut (grid0.coords t) ((dat0 V c).after 2 t) = _
  rw [after0_2]
  unfold out0_2
  rw [View.canon_unit_zero origin]
  simp only [View.ld_unit_zero (S := S256x4096) origin]
  obtain ⟨e0, e1, e2, e3, -, -⟩ := same_rows t
  funext j
  refine (weight_apply _ _ j).trans ?_
  show ternAt (V c main_arg1 (((cfg0.win 0).blk t).view.emb j)) (V c main_arg2 (((cfg0.win 1).blk t).view.emb j))
    = ternAt (V c main_arg1 (((cfg0.win 2).blk t).view.emb j)) (V c main_arg2 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 4096 + 1 * (j 1).val = win0_2.index t (1 : Fin 2) * 4096 + 1 * (j 1).val; omega
  rw [h0, h1]

/-- An index of the array is in point `t`'s block iff each coordinate is in the block's range on its axis. -/
theorem mem_blk (t : Fin cfg0.N) (i : S16384x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v0).slice (win0_2.rect t)).set ↔ _
  rw [View.set_slice_whole, Rect.mem_set_unit]
  exact Iff.rfl

/-- The 64 row blocks cover the array: row `r` is in block `r / 256`. -/
theorem cover (i : S16384x4096.Idx) : ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := row_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- After the region the result array is the ternary matrix of the two weight arrays as the region found them. -/
theorem final (c : Dev nD) : (dat0 V c).arrAt 2 cfg0.N = tern (V c main_arg1) (V c main_arg2) :=
  (dat0 V c).arrAt_eq_of_cover 2 (tern (V c main_arg1) (V c main_arg2)) (fun t _ => flushed_eq V c t) cover

end Cert.KernelIdeal.TernBlocks

end
-- ==== Proof.MatmulBlocks.lean ====
/-
  The second kernel region computes the affine map, block by block.

  Its grid is 8 × 32: point `(a, b)` loads rows `128·b …` of the activations (all 4096 columns), rows `2048·a …` of the
  weight matrix (all 4096 columns) and columns `2048·a …` of the one-row bias, and stores the `128 × 2048` block at
  block row `b`, block column `a` of the result. Inside the block, entry `(p, q)` is one matrix-unit product into a zero
  accumulator — the sum over all 4096 contracted positions of activation row `p` times weight row `q` — plus the bias
  row at `q`. The contraction is whole inside every point, so no sum is split across points: the block a point writes
  back is the restriction of ONE whole-array function of the three input arrays, and the 32 × 8 blocks cover the result.
-/
import proofs.«143409_j30159260352826_2_alg».proof.Proof.Gen.KernelIdeal.Frame
import proofs.«143409_j30159260352826_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.MatmulBlocks

open Cert.KernelIdeal Cert.KernelIdeal.Gen Idealize.ShloMosaic Idealize.ShloMosaic.TcCoe Idealize.SL.Sem
open Idealize.ShloMosaic.Pipeline (Dat)
open Idealize.ShloMosaic.ValueIdx Cert.TernaryLinear

variable (V : (c : Dev nD) → (b : Ref sig .tc) → Buf (Elt Ideal) ((c : Thread nD τ).loc b))

theorem origin : (![0, 0] : Fin 2 → Nat) = fun _ => 0 := funext fun a => by fin_cases a <;> rfl

/-- The matrix product's dimension numbers: both operands contract their axis 1, the result's axes are the operands' axes 0. -/
abbrev dims := dot_S128x4096_S2048x4096_S128x2048_1_1_0_0_n_n

theorem lhs_row (i : S128x2048.Idx) (k : dims.contr.Idx) : (dims.lhsIdx i k 0).val = (i 0).val := by
  unfold DotDims.lhsIdx
  rw [dif_neg (show ¬(0 : Fin S128x4096.rank) ∈ dims.lhsBatch by decide), dif_pos (show (0 : Fin S128x4096.rank) ∈ dims.lhsNonContracting by decide)]
  rfl
theorem lhs_col (i : S128x2048.Idx) (k : dims.contr.Idx) : (dims.lhsIdx i k 1).val = (k ⟨0, by decide⟩).val :=
  dims.lhsIdx_val_of_single rfl i k
theorem rhs_row (i : S128x2048.Idx) (k : dims.contr.Idx) : (dims.rhsIdx i k 0).val = (i 1).val := by
  unfold DotDims.rhsIdx
  rw [dif_neg (show ¬(0 : Fin S2048x4096.rank) ∈ dims.rhsBatch by decide), dif_pos (show (0 : Fin S2048x4096.rank) ∈ dims.rhsNonContracting by decide)]
  rfl
theorem rhs_col (i : S128x2048.Idx) (k : dims.contr.Idx) : (dims.rhsIdx i k 1).val = (k ⟨0, by decide⟩).val :=
  dims.rhsIdx_val_of_single rfl i k

/-- The matrix-unit product into a zero accumulator, at entry `(p, q)`: row `p` of the left block against row `q` of the right. -/
theorem product_apply (x0 : FVec Ideal S128x4096 .bf16) (x1 : FVec Ideal S2048x4096 .bf16) (p : Fin 128) (q : Fin 2048) :
    matmul (F := Ideal) dims none x0 x1 (constant S128x2048 .f32 0x00000000#32) (ix2 p q)
      = ∑ k : Fin 4096, x0 (ix2 p k) * x1 (ix2 q k) := by
  simp only [matmul]
  rw [Ideal.matmul_constant_zero_apply, ← Equiv.sum_comp (contrEquiv1 dims 4096 rfl rfl).symm]
  refine Finset.sum_congr rfl fun k _ => ?_
  have hk := contrEquiv1_symm_val dims 4096 rfl rfl k
  have el : dims.lhsIdx (ix2 p q) ((contrEquiv1 dims 4096 rfl rfl).symm k) = ix2 p k := funext fun a => Fin.ext (by
    match a with
    | ⟨0, _⟩ => exact lhs_row _ _
    | ⟨1, _⟩ => exact (lhs_col _ _).trans hk)
  have er : dims.rhsIdx (ix2 p q) ((contrEquiv1 dims 4096 rfl rfl).symm k) = ix2 q k := funext fun a => Fin.ext (by
    match a with
    | ⟨0, _⟩ => exact rhs_row _ _
    | ⟨1, _⟩ => exact (rhs_col _ _).trans hk)
  rw [el, er]

/-- The body's arithmetic at entry `(p, q)` of the block: the product there plus the bias row at `q`. -/
theorem entry_apply (x0 : FVec Ideal S128x4096 .bf16) (x1 : FVec Ideal S2048x4096 .bf16) (x2 : FVec Ideal S1x2048 .f32)
    (p : Fin 128) (q : Fin 2048) :
    k1_pay1 (F := Ideal) x0 x1 x2 (ix2 p q) = (∑ k : Fin 4096, x0 (ix2 p k) * x1 (ix2 q k)) + x2 (ix2 (0 : Fin 1) q) := by
  unfold k1_pay1
  simp only [shapeCast_self]
  rw [addf_apply, product_apply, broadcastTo_1b_ab_apply]

/-- The affine map over a weight matrix and a ONE-ROW bias array, as the region holds them. -/
def gemm (X : SX.Idx → EReal) (Wt : SW.Idx → EReal) (B : S1x16384.Idx → EReal) : SO.Idx → EReal :=
  fun i => affineAt X Wt (fun o => B (ix2 (0 : Fin 1) o)) (i 0) (i 1)

/-- An entry of a block is the affine map's entry at `(t, o)` when the block's activation row is the array's row `t`, its
    weight row the array's row `o` and its bias entry the array's at `o`. -/
theorem entry_of_rows (x0 : FVec Ideal S128x4096 .bf16) (x1 : FVec Ideal S2048x4096 .bf16) (x2 : FVec Ideal S1x2048 .f32)
    (X : SX.Idx → EReal) (Wt : SW.Idx → EReal) (B : S1x16384.Idx → EReal) (p : Fin 128) (q : Fin 2048) (t : Fin 4096) (o : Fin 16384)
    (h0 : ∀ k : Fin 4096, x0 (ix2 p k) = X (ix2 t k)) (h1 : ∀ k : Fin 4096, x1 (ix2 q k) = Wt (ix2 o k))
    (h2 : x2 (ix2 (0 : Fin 1) q) = B (ix2 (0 : Fin 1) o)) :
    k1_pay1 (F := Ideal) x0 x1 x2 (ix2 p q) = affineAt X Wt (fun o => B (ix2 (0 : Fin 1) o)) t o := by
  rw [entry_apply, h2]
  unfold affineAt
  exact congrArg (· + B (ix2 (0 : Fin 1) o)) (Finset.sum_congr rfl fun k _ => by rw [h0 k, h1 k])

/-- How the four windows' block indices relate at every point: the activations move with the result's block row, the weights
    and the bias with its block column; nothing else moves. -/
theorem block_indices : ∀ t : Fin cfg1.N,
    win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = 0 ∧ win1_2.index t (1 : Fin 2) = win1_3.index t (1 : Fin 2)
    ∧ win1_3.index t (0 : Fin 2) ≤ 31 ∧ win1_3.index t (1 : Fin 2) ≤ 7 :=
  (by decide +kernel : ∀ t : Fin grid1.N, _)

/-- Every block of the result is some point's. -/
theorem block_onto : ∀ (q0 : Fin 32) (q1 : Fin 8), ∃ t : Fin cfg1.N, win1_3.index t = ![q0.val, q1.val] :=
  (by decide +kernel : ∀ (q0 : Fin 32) (q1 : Fin 8), ∃ t : Fin grid1.N, win1_3.index t = ![q0.val, q1.val])

/-- What point `t` writes back is the block at `t` of the affine map of the region's three input arrays. -/
theorem flushed_eq (c : Dev nD) (t : Fin cfg1.N) :
    (dat1 V c).flushed 3 t = ((cfg1.win 3).blk t).view.read (Elt Ideal) (gemm (V c main_v1) (V c main_v0) (V c main_v2)) := by
  show (cfg1.win 3).cut (grid1.coords t) ((dat1 V c).after 3 t) = _
  rw [after1_3]
  unfold out1_3
  rw [View.canon_unit_zero origin]
  simp only [View.ld_unit_zero (S := S128x4096) origin, View.ld_unit_zero (S := S2048x4096) origin, View.ld_unit_zero (S := S1x2048) origin]
  obtain ⟨e0, e1, e2, e3, e4, e5, -, -⟩ := block_indices t
  funext j
  obtain ⟨p, q, rfl⟩ : ∃ (p : Fin 128) (q : Fin 2048), j = ix2 p q := ⟨j 0, j 1, eq_ix2 j⟩
  show k1_pay1 (iblk1 V c 0 t) (iblk1 V c 1 t) (iblk1 V c 2 t) (ix2 p q)
    = affineAt (V c main_v1) (V c main_v0) (fun o => V c main_v2 (ix2 (0 : Fin 1) o))
        (((cfg1.win 3).blk t).view.emb (ix2 p q) 0) (((cfg1.win 3).blk t).view.emb (ix2 p q) 1)
  refine entry_of_rows (iblk1 V c 0 t) (iblk1 V c 1 t) (iblk1 V c 2 t) (V c main_v1) (V c main_v0) (V c main_v2) p q
    (((cfg1.win 3).blk t).view.emb (ix2 p q) 0) (((cfg1.win 3).blk t).view.emb (ix2 p q) 1) (fun k => ?_) (fun k => ?_) ?_
  · show V c main_v1 (((cfg1.win 0).blk t).view.emb (ix2 p k)) = V c main_v1 (ix2 (((cfg1.win 3).blk t).view.emb (ix2 p q) 0) k)
    refine congrArg _ (funext fun a => Fin.ext ?_)
    match a with
    | ⟨0, _⟩ => show win1_0.index t (0 : Fin 2) * 128 + 1 * p.val = win1_3.index t (0 : Fin 2) * 128 + 1 * p.val; omega
    | ⟨1, _⟩ => show win1_0.index t (1 : Fin 2) * 4096 + 1 * k.val = k.val; omega
  · show V c main_v0 (((cfg1.win 1).blk t).view.emb (ix2 q k)) = V c main_v0 (ix2 (((cfg1.win 3).blk t).view.emb (ix2 p q) 1) k)
    refine congrArg _ (funext fun a => Fin.ext ?_)
    match a with
    | ⟨0, _⟩ => show win1_1.index t (0 : Fin 2) * 2048 + 1 * q.val = win1_3.index t (1 : Fin 2) * 2048 + 1 * q.val; omega
    | ⟨1, _⟩ => show win1_1.index t (1 : Fin 2) * 4096 + 1 * k.val = k.val; omega
  · show V c main_v2 (((cfg1.win 2).blk t).view.emb (ix2 (0 : Fin 1) q)) = V c main_v2 (ix2 (0 : Fin 1) (((cfg1.win 3).blk t).view.emb (ix2 p q) 1))
    refine congrArg _ (funext fun a => Fin.ext ?_)
    match a with
    | ⟨0, _⟩ => show win1_2.index t (0 : Fin 2) * 1 + 1 * 0 = 0; omega
    | ⟨1, _⟩ => show win1_2.index t (1 : Fin 2) * 2048 + 1 * q.val = win1_3.index t (1 : Fin 2) * 2048 + 1 * q.val; omega

/-- An index of the result is in point `t`'s block iff each coordinate is in the block's range on its axis. -/
theorem mem_blk (t : Fin cfg1.N) (i : S4096x16384.Idx) :
    i ∈ ((cfg1.win 3).blk t).view.set ↔ ∀ a : Fin 2, win1_3.index t a * S128x2048.size a ≤ (i a).val ∧ (i a).val < win1_3.index t a * S128x2048.size a + S128x2048.size a := by
  show i ∈ ((View.whole main_v3).slice (win1_3.rect t)).set ↔ _
  rw [View.set_slice_whole, Rect.mem_set_unit]
  exact Iff.rfl

/-- The blocks cover the result: entry `(r, s)` is in block `(r / 128, s / 2048)`. -/
theorem cover (i : S4096x16384.Idx) : ∃ t : Fin cfg1.N, (cfg1.win 3).flush t = true ∧ i ∈ ((cfg1.win 3).blk t).view.set := by
  have hi0 : (i 0).val < 4096 := (i 0).isLt
  have hi1 : (i 1).val < 16384 := (i 1).isLt
  obtain ⟨t, ht⟩ := block_onto ⟨(i 0).val / 128, by omega⟩ ⟨(i 1).val / 2048, by omega⟩
  have q0 : win1_3.index t (0 : Fin 2) = (i 0).val / 128 := congrFun ht 0
  have q1 : win1_3.index t (1 : Fin 2) = (i 1).val / 2048 := congrFun ht 1
  refine ⟨t, flush1_3 t, ?_⟩
  rw [mem_blk]
  intro a
  match a with
  | ⟨0, _⟩ => show win1_3.index t (0 : Fin 2) * 128 ≤ (i 0).val ∧ (i 0).val < win1_3.index t (0 : Fin 2) * 128 + 128; omega
  | ⟨1, _⟩ => show win1_3.index t (1 : Fin 2) * 2048 ≤ (i 1).val ∧ (i 1).val < win1_3.index t (1 : Fin 2) * 2048 + 2048; omega

/-- After the region the result array is the affine map of the three input arrays as the region found them. -/
theorem final (c : Dev nD) : (dat1 V c).arrAt 3 cfg1.N = gemm (V c main_v1) (V c main_v0) (V c main_v2) :=
  (dat1 V c).arrAt_eq_of_cover 3 (gemm (V c main_v1) (V c main_v0) (V c main_v2)) (fun t _ => flushed_eq V c t) cover

end Cert.KernelIdeal.MatmulBlocks

end
-- ==== Proof.KernelRun.lean ====
/-
  The idealized kernel's run, with its result named.

  The program is two kernel regions with a stretch of two host operations between them. The contents of the device's
  buffers at the three boundaries are known by name: after the first region its result array holds what that region's
  write-backs leave and everything else is as launched; the host stretch then writes the activations' copy in the
  narrower float format (no change of value on the extended reals) and the bias reshaped to one row; after the second
  region its result array holds what ITS write-backs leave. Every weakly fair execution ends with every unscoped buffer
  at the last boundary's contents; reading that at the program's result gives the second region's array, which is the
  affine map of the region's three inputs (the block-by-block argument), whose inputs are in turn the activations, the
  ternary matrix the first region left (its own block-by-block argument) and the bias row. Unfolding the three gives the
  layer of the four arguments.
-/
import proofs.«143409_j30159260352826_2_alg».proof.Proof.RunNamed
import proofs.«143409_j30159260352826_2_alg».proof.Proof.TernBlocks
import proofs.«143409_j30159260352826_2_alg».proof.Proof.MatmulBlocks
import Idealize.ShloMosaic.Lib.StableHlo.Run
import Idealize.ShloMosaic.Lib.ValueLayout

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.TernaryLinear

/-! ## The second region's three input arrays, on the extended reals -/

variable (m : (ℓ : Loc nD τ sig) → Buf (Elt Ideal) ℓ) (ρ : Dev nD → PrngReg)

/-- The activations the second region reads are the launch's: the host's change of float format is the identity, and the
    first region does not touch them. -/
theorem acts_eq (c : Dev nD) :
    (V2 m ρ c main_v1 : S4096x4096.Idx → EReal) = (m ((c.tc : Thread nD τ).loc main_arg0) : S4096x4096.Idx → EReal) := by
  show StableHlo.after hostOps1 (W1 m ρ c) (Proc.devRef .tc main_v1) = _
  dsimp only [hostOps1]
  after_results
  rw [W1_of_ne m ρ c main_arg0 (by decide)]
  rfl

/-- The weight matrix the second region reads is what the first region left: the ternary matrix of the launch's two weight
    arrays (the host stretch does not write it). -/
theorem weights_eq (c : Dev nD) :
    (V2 m ρ c main_v0 : S16384x4096.Idx → EReal)
      = tern (m ((c.tc : Thread nD τ).loc main_arg1)) (m ((c.tc : Thread nD τ).loc main_arg2)) := by
  have h : V2 m ρ c main_v0 = W1 m ρ c (Proc.devRef .tc main_v0) := by
    show StableHlo.after hostOps1 (W1 m ρ c) (Proc.devRef .tc main_v0) = _
    dsimp only [hostOps1]
    after_results
  exact h.trans ((W1_arr m ρ c 2).trans (TernBlocks.final (V0 m ρ) c))

/-- The bias row the second region reads, at column `o`, is the launch's bias at `o`: a reshape to one row. -/
theorem bias_apply (c : Dev nD) (o : Fin 16384) :
    (V2 m ρ c main_v2 : S1x16384.Idx → EReal) (ix2 (0 : Fin 1) o) = (m ((c.tc : Thread nD τ).loc main_arg3) : S16384.Idx → EReal) (ix1 o) := by
  have h : (V2 m ρ c main_v2 : S1x16384.Idx → EReal)
      = shapeCast S1x16384 (m ((c.tc : Thread nD τ).loc main_arg3) : S16384.Idx → EReal) shapeCasts_S16384_S1x16384 := by
    show StableHlo.after hostOps1 (W1 m ρ c) (Proc.devRef .tc main_v2) = _
    dsimp only [hostOps1]
    after_results
    rw [W1_of_ne m ρ c main_arg3 (by decide)]
    rfl
  rw [h]
  exact shapeCast_a_1a_apply _ _ (0 : Fin 1) o

/-- The result array after the run is the layer of the four argument arrays. -/
theorem final (c : Dev nD) :
    (dat1 (V2 m ρ) c).arrAt 3 cfg1.N
      = layer (m ((c.tc : Thread nD τ).loc main_arg0)) (m ((c.tc : Thread nD τ).loc main_arg1))
          (m ((c.tc : Thread nD τ).loc main_arg2)) (m ((c.tc : Thread nD τ).loc main_arg3)) := by
  rw [MatmulBlocks.final (V2 m ρ) c, acts_eq m ρ c, weights_eq m ρ c]
  funext i
  have hb : (fun o : Fin 16384 => (V2 m ρ c main_v2 : S1x16384.Idx → EReal) (ix2 (0 : Fin 1) o))
      = fun o : Fin 16384 => (m ((c.tc : Thread nD τ).loc main_arg3) : S16384.Idx → EReal) (ix1 o) :=
    funext fun o => bias_apply m ρ c o
  show affineAt _ _ (fun o : Fin 16384 => (V2 m ρ c main_v2 : S1x16384.Idx → EReal) (ix2 (0 : Fin 1) o)) (i 0) (i 1)
    = affineAt _ _ (fun o : Fin 16384 => (m ((c.tc : Thread nD τ).loc main_arg3) : S16384.Idx → EReal) (ix1 o)) (i 0) (i 1)
  rw [hb]

/-- The run, read: the result array at the layer of the arguments, the arguments unchanged. -/
theorem run : θ_run defs (onTc (τ := τ) (main (F := Ideal))) ⟨m, fun _ => 0, ρ⟩ (fun r => ∀ c : Dev nD,
      r.2.mem ((c.tc : Thread nD τ).loc main_v3)
        = layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (final m ρ c), (h c).2⟩) (run_named m ρ)

end Cert.KernelIdeal.Run

end
-- ==== Proof.RefSide.lean ====
/-
  The reference program computes the ternary linear layer.

  Read one operation at a time, the reference's result at `(t, o)` is a host `dot_general` that contracts the
  second axis of both operands — the sum over `k` of `x[t, k]` times the ternary weight at `(o, k)` — plus the bias
  broadcast along the rows, which at `(t, o)` is `bias[o]`. The ternary weight there is the host's two `sign`s added
  and multiplied by the constant one half, exactly the entry `ternAt` names. So index by index the reference's term is
  `layer` of its four arguments; the only work is identifying the composed index maps with coordinates.
-/
import proofs.«143409_j30159260352826_2_alg».proof.Proof.Gen.ReferenceIdeal.Read
import proofs.«143409_j30159260352826_2_alg».proof.Proof.Spec

noncomputable section

open scoped BigOperators

namespace Cert.ReferenceIdeal.Layer

open Cert.ReferenceIdeal Cert.ReferenceIdeal.Read Idealize.ShloMosaic Idealize.ShloMosaic.ValueIdx Cert.TernaryLinear

/-- The host's half-sum of signs at one element is the ternary weight. -/
theorem weight_apply (x1 x2 : (⟨S16384x4096, .f32⟩ : BufTy).Contents (Elt Ideal)) (j : S16384x4096.Idx) :
    val_main_v4 (F := Ideal) x1 x2 j = tern x1 x2 j := by
  rw [val_main_v4_apply, val_main_v2_apply, val_main_v0_apply, val_main_v1_apply, val_main_v3_apply, val_main_cst_apply]
  rfl

/-- The reference's result, index by index, is the layer of its arguments. -/
theorem result_eq (x0 : (⟨S4096x4096, .f32⟩ : BufTy).Contents (Elt Ideal)) (x1 x2 : (⟨S16384x4096, .f32⟩ : BufTy).Contents (Elt Ideal))
    (x3 : (⟨S16384, .f32⟩ : BufTy).Contents (Elt Ideal)) :
    val_main_v8 (F := Ideal) x0 x1 x2 x3 = layer x0 x1 x2 x3 := by
  funext i
  obtain ⟨t, o, rfl⟩ : ∃ (t : Fin 4096) (o : Fin 16384), i = ix2 t o := ⟨i 0, i 1, eq_ix2 i⟩
  rw [val_main_v8_apply, val_main_v5_apply, val_main_v7_apply, val_main_v6_apply]
  have eb : idx_main_v6 (idx_main_v7 (ix2 t o)) = ix1 o := funext fun a => Fin.ext (by match a with | ⟨0, _⟩ => rfl)
  have es : (∑ k : Fin 4096, x0 (lidx_main_v5 (ix2 t o) k) * val_main_v4 (F := Ideal) x1 x2 (ridx_main_v5 (ix2 t o) k))
      = ∑ k : Fin 4096, x0 (ix2 t k) * tern x1 x2 (ix2 o k) :=
    Finset.sum_congr rfl fun k _ => by
      have el : lidx_main_v5 (ix2 t o) k = ix2 t k := funext fun a => Fin.ext (by match a with | ⟨0, _⟩ => rfl | ⟨1, _⟩ => rfl)
      have er : ridx_main_v5 (ix2 t o) k = ix2 o k := funext fun a => Fin.ext (by match a with | ⟨0, _⟩ => rfl | ⟨1, _⟩ => rfl)
      rw [el, er, weight_apply]
  rw [eb, es]
  rfl

end Cert.ReferenceIdeal.Layer

end
-- ==== Proof.lean ====
/-
  A ternary linear layer: `out[t, o] = Σ_k x[t, k] · ((sign w1[o, k] + sign w2[o, k]) · ½) + bias[o]`, a kernel in two
  regions against a plain reference, equal on the extended reals.

  The kernel first writes the ternary weight matrix (one pass over the two weight arrays, 64 row blocks), then, after the
  host has copied the activations into the narrower float format and reshaped the bias to one row, computes the affine
  map in 32 × 8 blocks, each entry one whole contraction over the 4096 input features. The reference forms the same
  ternary matrix with the host's `sign`, contracts the same axes with one `dot_general` and adds the broadcast bias.

  On the extended reals a change of float format is the identity, the kernel's "1 with the operand's sign, where the
  operand is not zero" is the sign function (at the infinities too), and a matrix-unit product into a zero accumulator
  and a host `dot_general` are the same finite sum of products. So both programs compute ONE function of the four
  arguments, `layer`, index by index — no law of arithmetic beyond naming the sum's terms is needed, and in particular
  nothing that fails at an infinity: the precondition (finite inputs) is not used by the value argument.

  The three frames: the two kernel programs' are the generated ones; the reference has no kernel and its frame is its run
  with the result dropped. `preserves`: the idealization rewrote the two sign-bit reads, one statement each.
-/
import proofs.«143409_j30159260352826_2_alg».proof.Defs
import proofs.«143409_j30159260352826_2_alg».proof.Proof.Gen.Kernel
import proofs.«143409_j30159260352826_2_alg».proof.Proof.Gen.Kernel.Frame
import proofs.«143409_j30159260352826_2_alg».proof.Proof.Gen.KernelIdeal
import proofs.«143409_j30159260352826_2_alg».proof.Proof.Gen.KernelIdeal.Frame
import proofs.«143409_j30159260352826_2_alg».proof.Proof.Gen.ReferenceIdeal
import proofs.«143409_j30159260352826_2_alg».proof.Proof.Gen.ReferenceIdeal.Run
import proofs.«143409_j30159260352826_2_alg».proof.Proof.Gen.ReferenceIdeal.Read
import proofs.«143409_j30159260352826_2_alg».proof.Proof.Gen.Pre_finite_inputs
import proofs.«143409_j30159260352826_2_alg».proof.Proof.KernelRun
import proofs.«143409_j30159260352826_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- The reference is host operations only: its frame is its run, the result's equation dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization replaced each of the two "1 with the operand's sign bit" words by a comparison with zero. -/
theorem preserves : Cert.preserves_Kernel_KernelIdeal :=
  ⟨IdealRules.sign_bit.statement Cert.KernelIdeal.S256x4096 .f32, IdealRules.sign_bit.statement Cert.KernelIdeal.S256x4096 .f32⟩

/-- Both idealized programs end with the layer of the (agreeing) arguments in their result arrays. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Layer.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
